-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4x512 : Shape := ⟨3, ![32768, 4, 512]⟩
abbrev S512x512 : Shape := ⟨2, ![512, 512]⟩
abbrev S_ : Shape := ⟨0, ![]⟩

class Facts : Prop where
  bcast_S_S32768x4x512 : S_.BroadcastsInDim S32768x4x512 (![] : Fin 0 → Fin S32768x4x512.rank)
  reducesTo_S32768x4x512_S_d0_1_2 : S32768x4x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S32768x4x512 .f32) (main_arg1 : FVec F S512x512 .f32) : IVec S_ 1 :=
  let main_v0 : FVec F S32768x4x512 .f32 := Host.absf main_arg0
  let main_cst : FVec F S_ .f32 := constant S_ .f32 0x7F800000#32
  let main_v1 : FVec F S32768x4x512 .f32 := broadcastInDim S32768x4x512 ![] bcast_S_S32768x4x512 main_cst
  let main_v2 : IVec S32768x4x512 1 := cmpf .olt main_v0 main_v1
  let main_c : IVec S_ 1 := constantI S_ 1 1#1
  let main_v3 : IVec S_ 1 := (fun x v => Host.reduce IntOp.andi x v reducesTo_S32768x4x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S32768x4x512 : Shape := ⟨3, ![32768, 4, 512]⟩
abbrev S512x512 : Shape := ⟨2, ![512, 512]⟩
abbrev S131072x512 : Shape := ⟨2, ![131072, 512]⟩
abbrev S131072x1025 : Shape := ⟨2, ![131072, 1025]⟩
abbrev S1024x512 : Shape := ⟨2, ![1024, 512]⟩
abbrev S1024x1025 : Shape := ⟨2, ![1024, 1025]⟩
abbrev S1024 : Shape := ⟨1, ![1024]⟩
abbrev S1024x1 : Shape := ⟨2, ![1024, 1]⟩
abbrev S32768x4x1025 : Shape := ⟨3, ![32768, 4, 1025]⟩

abbrev nBuf : Space → Nat
  | .hbm => 6
  | .vmem => 5
  | .smem => 0
  | _ => 0

abbrev bufTy : (tb : Table) → Fin (tcTables nBuf tb) → BufTy
  | .hbm, ⟨0, _⟩ => ⟨S32768x4x512, .f32⟩
  | .hbm, ⟨1, _⟩ => ⟨S512x512, .f32⟩
  | .hbm, ⟨2, _⟩ => ⟨S131072x512, .f32⟩
  | .hbm, ⟨3, _⟩ => ⟨S512x512, .bf16⟩
  | .hbm, ⟨4, _⟩ => ⟨S131072x1025, .f32⟩
  | .hbm, ⟨5, _⟩ => ⟨S32768x4x1025, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S1024x1025, .f32⟩
  | .local _ .vmem, ⟨4, _⟩ => ⟨S1024x1025, .f32⟩
  | _, _ => ⟨S32768x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1025 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32768x4x512_S131072x512 : S32768x4x512.ShapeCasts S131072x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S1024x512_S1024 : S1024x512.Reduces [1] S1024
  shapeCasts_S1024_S1024x1 : S1024.ShapeCasts S1024x1
  concatenates_S1024x1_S1024x512_S1024x512_S1024x1025_d1 : Shape.Concatenates [S1024x1, S1024x512, S1024x512] S1024x1025 1
  inb_S1024x1025_S1024x1025_0_0 : ∀ a, (![0, 0] : Fin 2 → Nat) a + S1024x1025.size a ≤ S1024x1025.size a
  h_S1024x1025 : 0 < S1024x1025.numel
  shapeCasts_S131072x1025_S32768x4x1025 : S131072x1025.ShapeCasts S32768x4x1025
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S131072x512.size a
  hwx0_0 : ∀ i : grid0.Coords, EltTy.bits .f32 = 32 ∨ (Rect.block (s := S131072x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1025.size a ≤ S131072x1025.size a
  hwx0_2 : ∀ i : grid0.Coords, EltTy.bits .f32 = 32 ∨ (Rect.block (s := S131072x1025) S1024x1025.size (cc0_transform_2 i) (hinb0_2 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1025.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x4x512 : Shape := ⟨3, ![32768, 4, 512]⟩
abbrev S512x512 : Shape := ⟨2, ![512, 512]⟩
abbrev S_ : Shape := ⟨0, ![]⟩
abbrev S512x1 : Shape := ⟨2, ![512, 1]⟩
abbrev S512x1025 : Shape := ⟨2, ![512, 1025]⟩
abbrev S32768x4x1025 : Shape := ⟨3, ![32768, 4, 1025]⟩

abbrev nBuf : Space → Nat
  | .hbm => 13
  | .vmem => 0
  | .smem => 0
  | _ => 0

abbrev bufTy : (tb : Table) → Fin (tcTables nBuf tb) → BufTy
  | .hbm, ⟨0, _⟩ => ⟨S32768x4x512, .f32⟩
  | .hbm, ⟨1, _⟩ => ⟨S512x512, .f32⟩
  | .hbm, ⟨2, _⟩ => ⟨S_, .f32⟩
  | .hbm, ⟨3, _⟩ => ⟨S512x1, .f32⟩
  | .hbm, ⟨4, _⟩ => ⟨S512x512, .i32⟩
  | .hbm, ⟨5, _⟩ => ⟨S512x512, .i32⟩
  | .hbm, ⟨6, _⟩ => ⟨S_, .i32⟩
  | .hbm, ⟨7, _⟩ => ⟨S512x512, .i32⟩
  | .hbm, ⟨8, _⟩ => ⟨S512x512, .i32⟩
  | .hbm, ⟨9, _⟩ => ⟨S512x512, .i1⟩
  | .hbm, ⟨10, _⟩ => ⟨S512x512, .f32⟩
  | .hbm, ⟨11, _⟩ => ⟨S512x1025, .f32⟩
  | .hbm, ⟨12, _⟩ => ⟨S32768x4x1025, .f32⟩
  | _, _ => ⟨S32768x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S_S512x1 : S_.BroadcastsInDim S512x1 (![] : Fin 0 → Fin S512x1.rank)
  bcast_S_S512x512 : S_.BroadcastsInDim S512x512 (![] : Fin 0 → Fin S512x512.rank)
  concatenates_S512x1_S512x512_S512x512_S512x1025_d1 : Shape.Concatenates [S512x1, S512x512, S512x512] S512x1025 1
  dot_S32768x4x512_S512x1025_S32768x4x1025_2_0_01_1_n_n_wf : DotDims.WF S32768x4x512 S512x1025 S32768x4x1025 [2] [0] [0, 1] [1] [] []

variable [Facts₀]

def dot_S32768x4x512_S512x1025_S32768x4x1025_2_0_01_1_n_n : DotDims S32768x4x512 S512x1025 S32768x4x1025 where
  lhsContracting := [2]
  rhsContracting := [0]
  lhsNonContracting := [0, 1]
  rhsNonContracting := [1]
  lhsBatch := []
  rhsBatch := []
  wf := dot_S32768x4x512_S512x1025_S32768x4x1025_2_0_01_1_n_n_wf

class Facts : Prop extends Facts₀ where

variable [Facts]
-- ==== Proof.RowBands.lean ====
/-
  The layer, one row at a time.

  Each row of the input (512 entries) produces one row of the output (1025 entries) in three bands:
    * entry 0 is the sum of the row;
    * entries 1 … 512 are the row itself;
    * entries 513 … 1024 are the row multiplied by the 512×512 weight matrix.
  This is what multiplying the row by the 512×1025 matrix [ones | identity | weights] gives: against the column of
  ones every product is the entry itself, against column j of the identity every product but the j-th is zero, and
  against a column of the weights nothing simplifies. Over the extended reals x·1 = x and x·0 = 0 hold for every x,
  infinite or not, so none of this needs the entries to be finite.

  `band` is that row function, `whole` applies it to every (batch, feature) row of the rank-3 input, and `flat`
  applies it to every row of the same data laid out with the two leading axes merged into one.
-/
import Idealize.ShloMosaic.PureOps.Ideal
import Idealize.ShloMosaic.Lib.ValueIdx

noncomputable section

namespace Cert.RowBands

open Idealize.ShloMosaic Idealize.ShloMosaic.ValueIdx
open scoped BigOperators

/-- One output row from one input row and the weights, entry by entry. -/
def band (row : Fin 512 → EReal) (w : (⟨2, ![512, 512]⟩ : Shape).Idx → EReal) (q : Fin 1025) : EReal :=
  if q.val = 0 then ∑ k : Fin 512, row k
  else if h : q.val < 513 then row ⟨q.val - 1, by omega⟩
  else ∑ k : Fin 512, row k * w (ix2 k ⟨q.val - 513, by have := q.isLt; omega⟩)

/-- Every column of the output row is the sum column, a copy column, or a product column. -/
theorem col_cases (q : Fin 1025) :
    q.val = 0 ∨ (∃ j : Fin 512, 1 + j.val = q.val) ∨ (∃ n : Fin 512, 1 + 512 + n.val = q.val) := by
  have hq := q.isLt
  by_cases h0 : q.val = 0
  · exact Or.inl h0
  · by_cases h1 : q.val < 513
    · exact Or.inr (Or.inl ⟨⟨q.val - 1, by omega⟩, by show 1 + (q.val - 1) = q.val; omega⟩)
    · exact Or.inr (Or.inr ⟨⟨q.val - 513, by omega⟩, by show 1 + 512 + (q.val - 513) = q.val; omega⟩)

/-- Column 0 holds the row's sum. -/
theorem band_sum (row : Fin 512 → EReal) (w : (⟨2, ![512, 512]⟩ : Shape).Idx → EReal) (q : Fin 1025)
    (hq : q.val = 0) : band row w q = ∑ k : Fin 512, row k := by
  unfold band
  rw [if_pos hq]

/-- Column 1 + j holds the row's entry j. -/
theorem band_copy (row : Fin 512 → EReal) (w : (⟨2, ![512, 512]⟩ : Shape).Idx → EReal) (q : Fin 1025)
    (j : Fin 512) (hq : 1 + j.val = q.val) : band row w q = row j := by
  have hj := j.isLt
  unfold band
  rw [if_neg (by omega), dif_pos (by omega)]
  exact congrArg row (Fin.ext (by show q.val - 1 = j.val; omega))

/-- Column 1 + 512 + n holds the row times column n of the weights. -/
theorem band_prod (row : Fin 512 → EReal) (w : (⟨2, ![512, 512]⟩ : Shape).Idx → EReal) (q : Fin 1025)
    (n : Fin 512) (hq : 1 + 512 + n.val = q.val) : band row w q = ∑ k : Fin 512, row k * w (ix2 k n) := by
  unfold band
  rw [if_neg (by omega), dif_neg (by omega)]
  have e : (⟨q.val - 513, by have := q.isLt; omega⟩ : Fin 512) = n := Fin.ext (by show q.val - 513 = n.val; omega)
  rw [e]

/-- Against a column of ones the products are the entries themselves. -/
theorem sum_mul_ones (row : Fin 512 → EReal) (u : Fin 512 → EReal) (hu : ∀ k, u k = 1) :
    ∑ k : Fin 512, row k * u k = ∑ k : Fin 512, row k :=
  Finset.sum_congr rfl fun k _ => by rw [hu k, mul_one]

/-- Against column j of the identity only the j-th product survives. -/
theorem sum_mul_unit (row : Fin 512 → EReal) (j : Fin 512) (u : Fin 512 → EReal) (hj : u j = 1)
    (hne : ∀ k, k ≠ j → u k = 0) : ∑ k : Fin 512, row k * u k = row j := by
  rw [Finset.sum_eq_single j (fun k _ hk => by rw [hne k hk, mul_zero]) (fun h => absurd (Finset.mem_univ j) h),
    hj, mul_one]

/-- The whole output from the rank-3 input: row (b, f) of the output is `band` of row (b, f) of the input. -/
def whole (x : (⟨3, ![32768, 4, 512]⟩ : Shape).Idx → EReal) (w : (⟨2, ![512, 512]⟩ : Shape).Idx → EReal) :
    (⟨3, ![32768, 4, 1025]⟩ : Shape).Idx → EReal :=
  fun i => band (fun k => x (ix3 (i 0 : Fin 32768) (i 1 : Fin 4) k)) w (i 2 : Fin 1025)

theorem whole_apply (x : (⟨3, ![32768, 4, 512]⟩ : Shape).Idx → EReal) (w : (⟨2, ![512, 512]⟩ : Shape).Idx → EReal)
    (b : Fin 32768) (f : Fin 4) (q : Fin 1025) :
    whole x w (ix3 b f q) = band (fun k => x (ix3 b f k)) w q := rfl

/-- The same with the two leading axes merged: row r of the output is `band` of row r of the input. -/
def flat (x : (⟨2, ![131072, 512]⟩ : Shape).Idx → EReal) (w : (⟨2, ![512, 512]⟩ : Shape).Idx → EReal) :
    (⟨2, ![131072, 1025]⟩ : Shape).Idx → EReal :=
  fun i => band (fun k => x (ix2 (i 0 : Fin 131072) k)) w (i 1 : Fin 1025)

theorem flat_apply (x : (⟨2, ![131072, 512]⟩ : Shape).Idx → EReal) (w : (⟨2, ![512, 512]⟩ : Shape).Idx → EReal)
    (r : Fin 131072) (q : Fin 1025) :
    flat x w (ix2 r q) = band (fun k => x (ix2 r k)) w q := rfl

end Cert.RowBands

end
-- ==== Proof.LibConcat3.lean ====
/-
  Three arrays side by side, read at one entry.

  Three arrays with the same number R of rows and with A, B and C columns, laid side by side along the column axis,
  make one array of R rows and T columns (T = A + B + C is part of the hypothesis that the pieces fit). Its entry at
  row r and column c is the first array's entry (r, c) when c < A, the second array's entry (r, c - A) when
  A ≤ c < A + B, and the third array's entry (r, c - A - B) from there on. Each case is stated with the column inside
  the piece given as an index of its own and one equation tying it to c, so that no case split on c is made here.
-/
import Idealize.ShloMosaic.Lib.Pipeline.Value
import Idealize.ShloMosaic.Lib.ValueIdx

noncomputable section

namespace Cert.LibConcat3

open Idealize.ShloMosaic Idealize.ShloMosaic.ValueIdx

variable {α : Type} {R A B C T : ℕ}

/-- A column inside the first piece: the side-by-side array reads the first piece there. -/
theorem read_first (x : (⟨2, ![R, A]⟩ : Shape).Idx → α) (y : (⟨2, ![R, B]⟩ : Shape).Idx → α)
    (z : (⟨2, ![R, C]⟩ : Shape).Idx → α)
    (h : Shape.Concatenates [⟨2, ![R, A]⟩, ⟨2, ![R, B]⟩, ⟨2, ![R, C]⟩] ⟨2, ![R, T]⟩ 1)
    (r : Fin R) (c : Fin T) (a : Fin A) (hc : a.val = c.val) :
    concatenate ⟨2, ![R, T]⟩ 1 [⟨⟨2, ![R, A]⟩, x⟩, ⟨⟨2, ![R, B]⟩, y⟩, ⟨⟨2, ![R, C]⟩, z⟩] h (ix2 r c) = x (ix2 r a) :=
  concatenate_apply_piece 1 [⟨⟨2, ![R, A]⟩, x⟩, ⟨⟨2, ![R, B]⟩, y⟩, ⟨⟨2, ![R, C]⟩, z⟩] h (ix2 r c) 0 (by simp) _ x rfl rfl 0 rfl (ix2 r a)
    (fun b hb => by
      match b with
      | ⟨0, _⟩ => rfl
      | ⟨1, _⟩ => exact absurd rfl hb)
    (by show 0 + a.val = c.val; omega)

/-- A column inside the second piece, A columns in: the side-by-side array reads the second piece there. -/
theorem read_second (x : (⟨2, ![R, A]⟩ : Shape).Idx → α) (y : (⟨2, ![R, B]⟩ : Shape).Idx → α)
    (z : (⟨2, ![R, C]⟩ : Shape).Idx → α)
    (h : Shape.Concatenates [⟨2, ![R, A]⟩, ⟨2, ![R, B]⟩, ⟨2, ![R, C]⟩] ⟨2, ![R, T]⟩ 1)
    (r : Fin R) (c : Fin T) (b : Fin B) (hc : A + b.val = c.val) :
    concatenate ⟨2, ![R, T]⟩ 1 [⟨⟨2, ![R, A]⟩, x⟩, ⟨⟨2, ![R, B]⟩, y⟩, ⟨⟨2, ![R, C]⟩, z⟩] h (ix2 r c) = y (ix2 r b) :=
  concatenate_apply_piece 1 [⟨⟨2, ![R, A]⟩, x⟩, ⟨⟨2, ![R, B]⟩, y⟩, ⟨⟨2, ![R, C]⟩, z⟩] h (ix2 r c) 1 (by simp) _ y rfl rfl A rfl (ix2 r b)
    (fun d hd => by
      match d with
      | ⟨0, _⟩ => rfl
      | ⟨1, _⟩ => exact absurd rfl hd)
    (by show A + b.val = c.val; exact hc)

/-- A column inside the third piece, A + B columns in: the side-by-side array reads the third piece there. -/
theorem read_third (x : (⟨2, ![R, A]⟩ : Shape).Idx → α) (y : (⟨2, ![R, B]⟩ : Shape).Idx → α)
    (z : (⟨2, ![R, C]⟩ : Shape).Idx → α)
    (h : Shape.Concatenates [⟨2, ![R, A]⟩, ⟨2, ![R, B]⟩, ⟨2, ![R, C]⟩] ⟨2, ![R, T]⟩ 1)
    (r : Fin R) (c : Fin T) (e : Fin C) (hc : A + B + e.val = c.val) :
    concatenate ⟨2, ![R, T]⟩ 1 [⟨⟨2, ![R, A]⟩, x⟩, ⟨⟨2, ![R, B]⟩, y⟩, ⟨⟨2, ![R, C]⟩, z⟩] h (ix2 r c) = z (ix2 r e) :=
  concatenate_apply_piece 1 [⟨⟨2, ![R, A]⟩, x⟩, ⟨⟨2, ![R, B]⟩, y⟩, ⟨⟨2, ![R, C]⟩, z⟩] h (ix2 r c) 2 (by simp) _ z rfl rfl (A + B) rfl (ix2 r e)
    (fun d hd => by
      match d with
      | ⟨0, _⟩ => rfl
      | ⟨1, _⟩ => exact absurd rfl hd)
    (by show A + B + e.val = c.val; exact hc)

end Cert.LibConcat3

end
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.KernelRow.lean ====
/-
  What the kernel body computes, entry by entry.

  The body loads a block of 1024 input rows and the whole weight matrix, and stores one block of 1024 output rows
  built as three pieces side by side: the rows' sums (a lane reduction, kept as a 1024×1 column), the rows
  themselves, and the rows times the weights (a matrix product into a zero accumulator, fed through a change of
  float format that is the identity on exact values). Read at row p and column c of the stored block, that is the
  row function `band` of row p of the loaded block: the sum in column 0, a copy in columns 1 … 512, the product
  with the weights' column in columns 513 … 1024.
-/
import proofs.«145276_j48284022342007_2_alg».proof.Proof.Gen.KernelIdeal.Skeleton
import proofs.«145276_j48284022342007_2_alg».proof.Proof.RowBands
import proofs.«145276_j48284022342007_2_alg».proof.Proof.LibConcat3
import proofs.«145276_j48284022342007_2_alg».proof.Proof.LibPlainDot
import Idealize.ShloMosaic.Lib.Pipeline.Value
import Idealize.ShloMosaic.Lib.ValueIdx
import Idealize.ShloMosaic.PureOps.Ideal.Laws

noncomputable section

namespace Cert.KernelIdeal.Row

open Cert.KernelIdeal Cert.KernelIdeal.Gen Idealize.ShloMosaic Idealize.ShloMosaic.ValueIdx
open scoped BigOperators

/-- The lane reduction's index with the lane put back is (row, lane). -/
theorem lift_row (p : Fin 1024) (k : Fin 512) :
    (Facts₀.reduces_S1024x512_S1024).lift (ix1 p) k = (ix2 p k : S1024x512.Idx) :=
  funext fun a => Fin.ext (by
    match a with
    | ⟨0, _⟩ => rfl
    | ⟨1, _⟩ => rfl)

/-- The stored block at (p, c) is `band` of row p of the loaded input block, with the loaded weights. -/
theorem pay_apply (x0 : Vec Ideal S1024x512 .f32) (x1 : Vec Ideal S512x512 .bf16) (p : Fin 1024) (c : Fin 1025) :
    k0_pay1 (F := Ideal) x0 x1 (ix2 p c) = Cert.RowBands.band (fun k => x0 (ix2 p k)) x1 c := by
  unfold k0_pay1
  rcases Cert.RowBands.col_cases c with h0 | ⟨j, hj⟩ | ⟨n, hn⟩
  · -- column 0: the 1024×1 column of row sums
    rw [Cert.RowBands.band_sum _ _ _ h0]
    refine (Cert.LibConcat3.read_first _ _ _ _ p c (0 : Fin 1) (by show 0 = c.val; omega)).trans ?_
    refine (shapeCast_apply _ _ (ix2 p (0 : Fin 1)) (ix1 p) (by
      rw [Shape.rowMajor_val_one, Shape.rowMajor_val_two]
      show p.val = p.val * 1 + 0
      omega)).trans ?_
    refine (Ideal.multiReduction_add_single _ _ _ _ _ (ix1 p)).trans ?_
    show ∑ k : Fin 512, _ = _
    refine Finset.sum_congr rfl fun k _ => ?_
    rw [shapeCast_self, lift_row]
  · -- columns 1 … 512: the loaded rows
    rw [Cert.RowBands.band_copy _ _ _ j hj]
    refine (Cert.LibConcat3.read_second _ _ _ _ p c j hj).trans ?_
    rw [shapeCast_self]
  · -- columns 513 … 1024: the rows times the weights
    rw [Cert.RowBands.band_prod _ _ _ n hn]
    refine (Cert.LibConcat3.read_third _ _ _ _ p c n hn).trans ?_
    refine (Cert.LibPlainDot.matmul_zero_apply _ rfl none _ _ p n).trans ?_
    refine Finset.sum_congr rfl fun k _ => ?_
    show (shapeCast S1024x512 x0 _) (ix2 p k) * (shapeCast S512x512 x1 _) (ix2 k n) = _
    rw [shapeCast_self, shapeCast_self]

end Cert.KernelIdeal.Row

end
-- ==== Proof.KernelArray.lean ====
/-
  From the kernel's blocks to its result array.

  The program first lays the rank-3 input out as 131072 rows of 512 entries (row 4·b + f is the input's row (b, f))
  and changes the weights' float format (the identity on exact values). The grid has 128 points; point t loads rows
  1024·t … 1024·t + 1023 of the flattened input and the whole weight matrix, and writes back rows
  1024·t … 1024·t + 1023 of a 131072×1025 array. By the entry-by-entry reading of the body, what point t writes back
  is block t of ONE function of the flattened input and the weights: the row function applied to every row. The 128
  blocks tile the array, so after the run the array is that function. The last host step lays the 131072 rows back out
  as (b, f) pairs, which turns "row 4·b + f of the flattened input" back into "row (b, f) of the input".
-/
import proofs.«145276_j48284022342007_2_alg».proof.Proof.Gen.KernelIdeal.Frame
import proofs.«145276_j48284022342007_2_alg».proof.Proof.KernelRow
import Idealize.ShloMosaic.Lib.Pipeline.Value
import Idealize.ShloMosaic.Lib.StableHlo.Run

noncomputable section

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The three index maps over the 128 grid points: the input and output blocks move down the rows with the point, the
    weights' block stays put, and no block moves along the columns. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the input block at point t is row 1024·t + p of the flattened input. -/
theorem iblk0_apply (c : Dev nD) (t : Fin cfg0.N) (p : Fin 1024) (k : Fin 512) (r : Fin 131072)
    (hr : r.val = t.val * 1024 + p.val) :
    (iblk m c 0 t : Vec Ideal S1024x512 .f32) (ix2 p k) = (V m c main_v0 : S131072x512.Idx → EReal) (ix2 r k) := by
  obtain ⟨e0, e1, -, -, -, -⟩ := idx_facts t
  unfold iblk
  rw [View.read_apply]
  show V m c main_v0 _ = V m c main_v0 _
  congr 1
  funext a
  apply Fin.ext
  match a with
  | ⟨0, _⟩ => show win0_0.index t (0 : Fin 2) * 1024 + 1 * p.val = r.val; omega
  | ⟨1, _⟩ => show win0_0.index t (1 : Fin 2) * 512 + 1 * k.val = k.val; omega

/-- The weights' block at every point is the whole (format-changed) weight matrix. -/
theorem iblk1_apply (c : Dev nD) (t : Fin cfg0.N) (j : S512x512.Idx) :
    (iblk m c 1 t : Vec Ideal S512x512 .bf16) j = (V m c main_v1 : S512x512.Idx → EReal) j := by
  obtain ⟨-, -, e2, e3, -, -⟩ := idx_facts t
  unfold iblk
  rw [View.read_apply]
  show V m c main_v1 _ = V m c main_v1 _
  congr 1
  funext a
  apply Fin.ext
  match a with
  | ⟨0, _⟩ => show win0_1.index t (0 : Fin 2) * 512 + 1 * (j 0).val = (j 0).val; omega
  | ⟨1, _⟩ => show win0_1.index t (1 : Fin 2) * 512 + 1 * (j 1).val = (j 1).val; omega

/-- One stored entry against one entry of the whole-array function: when the loaded row is row r of X and the loaded
    weights are W, entry (p, q) of the stored block is entry (r, q) of the row function applied to every row of X. -/
theorem block_entry (X : S131072x512.Idx → EReal) (W : S512x512.Idx → EReal) (x0 : Vec Ideal S1024x512 .f32)
    (x1 : Vec Ideal S512x512 .bf16) (p : Fin 1024) (q : Fin 1025) (r : Fin 131072)
    (hrow : ∀ k : Fin 512, x0 (ix2 p k) = X (ix2 r k)) (hw : ∀ j, x1 j = W j) :
    k0_pay1 (F := Ideal) x0 x1 (ix2 p q) = Cert.RowBands.flat X W (ix2 r q) := by
  rw [Cert.KernelIdeal.Row.pay_apply, Cert.RowBands.flat_apply]
  have h0 : (fun k : Fin 512 => x0 (ix2 p k)) = fun k => X (ix2 r k) := funext hrow
  have h1 : x1 = W := funext hw
  rw [h0, h1]

/-- What point t writes back is block t of the row function applied to every row of the flattened input. -/
theorem flushed_eq (c : Dev nD) (t : Fin cfg0.N) :
    (dats m 0 c).flushed 2 t
      = ((cfg0.win 2).blk t).view.read (Elt Ideal) (Cert.RowBands.flat (V m c main_v0) (V m c main_v1)) := by
  show (cfg0.win 2).cut (grid0.coords t) ((dats m 0 c).after 2 t) = _
  rw [after0_2]
  unfold out0_2
  rw [View.canon_unit_zero hz]
  simp only [View.ld_unit_zero (S := S1024x512) hz, View.ld_unit_zero (S := S512x512) hz]
  obtain ⟨-, -, -, -, e4, e5⟩ := idx_facts t
  have hN : cfg0.N = 128 := N_0
  have ht := t.isLt
  show (k0_pay1 (F := Ideal) (iblk m c 0 t) (iblk m c 1 t) : S1024x1025.Idx → EReal)
    = fun y => Cert.RowBands.flat (V m c main_v0) (V m c main_v1) (((cfg0.win 2).blk t).view.emb y)
  funext y
  obtain ⟨p, q, rfl⟩ : ∃ (p : Fin 1024) (q : Fin 1025), y = ix2 p q := ⟨y 0, y 1, eq_ix2 y⟩
  have hp := p.isLt
  have hemb : ((cfg0.win 2).blk t).view.emb (ix2 p q)
      = (ix2 (⟨t.val * 1024 + p.val, by omega⟩ : Fin 131072) q : S131072x1025.Idx) := by
    funext a
    apply Fin.ext
    match a with
    | ⟨0, _⟩ => show win0_2.index t (0 : Fin 2) * 1024 + 1 * p.val = t.val * 1024 + p.val; omega
    | ⟨1, _⟩ => show win0_2.index t (1 : Fin 2) * 1025 + 1 * q.val = q.val; omega
  rw [hemb]
  exact block_entry _ _ _ _ p q _ (fun k => iblk0_apply m c t p k _ rfl) (fun j => iblk1_apply m c t j)

/-- An index of the array is in point t's block iff each coordinate is in the block's range on its axis. -/
theorem mem_blk (t : Fin cfg0.N) (i : S131072x1025.Idx) :
    i ∈ ((cfg0.win 2).blk t).view.set ↔ ∀ a : Fin 2, win0_2.index t a * S1024x1025.size a ≤ (i a).val
      ∧ (i a).val < win0_2.index t a * S1024x1025.size a + S1024x1025.size a := by
  show i ∈ ((View.whole main_v2).slice (win0_2.rect t)).set ↔ _
  rw [View.set_slice_whole, Rect.mem_set_unit]
  exact Iff.rfl

/-- Row r of the array lies in the block of point r / 1024: the 128 blocks tile the array. -/
theorem cover (i : S131072x1025.Idx) :
    ∃ t : Fin cfg0.N, (cfg0.win 2).flush t = true ∧ i ∈ ((cfg0.win 2).blk t).view.set := by
  have hN : cfg0.N = 128 := N_0
  have h0 : (i 0).val < 131072 := (i 0).isLt
  have h1 : (i 1).val < 1025 := (i 1).isLt
  obtain ⟨t, ht⟩ : ∃ t : Fin cfg0.N, t.val = (i 0).val / 1024 := ⟨⟨(i 0).val / 1024, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1025 ≤ (i 1).val ∧ (i 1).val < win0_2.index t (1 : Fin 2) * 1025 + 1025
    omega

/-- The array after the run: the row function applied to every row of the flattened input. -/
theorem final (c : Dev nD) :
    (dats m 0 c).arrAt 2 cfg0.N = Cert.RowBands.flat (V m c main_v0) (V m c main_v1) :=
  (dats m 0 c).arrAt_eq_of_cover 2 _ (fun t _ => flushed_eq m c t) cover

/-- The flattened input the region finds: the input's elements in row-major order as 131072 rows. -/
theorem V_main_v0 (c : Dev nD) :
    (V m c main_v0 : S131072x512.Idx → EReal)
      = shapeCast S131072x512 (m ((c : Thread nD τ).loc main_arg0)) Facts₀.shapeCasts_S32768x4x512_S131072x512 := by
  show StableHlo.after hostOps0 (fun b => m (c, b)) (Proc.devRef .tc main_v0) = _
  after_results
  rfl

/-- The weights the region finds: the weights (the change of format is the identity on exact values). -/
theorem V_main_v1 (c : Dev nD) :
    (V m c main_v1 : S512x512.Idx → EReal) = m ((c : Thread nD τ).loc main_arg1) := by
  show StableHlo.after hostOps0 (fun b => m (c, b)) (Proc.devRef .tc main_v1) = _
  after_results
  rfl

/-- Row 4·b + f of the flattened input is row (b, f) of the input. -/
theorem flat_row (x : S32768x4x512.Idx → EReal) (b : Fin 32768) (f : Fin 4) (k : Fin 512) (r : Fin 131072)
    (hr : r.val = b.val * 4 + f.val) :
    shapeCast S131072x512 x Facts₀.shapeCasts_S32768x4x512_S131072x512 (ix2 r k) = x (ix3 b f k) :=
  shapeCast_apply x _ (ix2 r k) (ix3 b f k) (by
    rw [Shape.rowMajor_val_three, Shape.rowMajor_val_two]
    show (b.val * 4 + f.val) * 512 + k.val = r.val * 512 + k.val
    rw [hr])

/-- The program's result: the row function applied to every (batch, feature) row of the input. -/
theorem tail_eq (c : Dev nD) :
    Pipeline.afterTail₀ cfgs (dats m) 0 (V0 m) [hostOps1] c main_v3
      = Cert.RowBands.whole (m ((c : Thread nD τ).loc main_arg0)) (m ((c : Thread nD τ).loc main_arg1)) := by
  unfold Pipeline.afterTail₀
  show StableHlo.after hostOps1 _ (Proc.devRef .tc main_v3) = _
  after_results
  have hA : Pipeline.withArrays (cfgs 0).spec c (V0 m c) (fun w => (dats m 0 c).arrAt w (cfgs 0).N)
      (Proc.devRef .tc main_v2) = Cert.RowBands.flat (V m c main_v0) (V m c main_v1) :=
    (Pipeline.withArrays_arr spec0 launch0.win.arr_inj c _ _ 2).trans (final m c)
  rw [hA, V_main_v0, V_main_v1]
  funext i
  obtain ⟨b, f, q, rfl⟩ : ∃ (b : Fin 32768) (f : Fin 4) (q : Fin 1025), i = ix3 b f q := ⟨i 0, i 1, i 2, eq_ix3 i⟩
  have hb := b.isLt
  have hf := f.isLt
  rw [Cert.RowBands.whole_apply]
  show shapeCast S32768x4x1025 _ Facts₀.shapeCasts_S131072x1025_S32768x4x1025 (ix3 b f q) = _
  refine (shapeCast_apply _ _ (ix3 b f q) (ix2 (⟨b.val * 4 + f.val, by omega⟩ : Fin 131072) q) (by
    rw [Shape.rowMajor_val_two, Shape.rowMajor_val_three]
    rfl)).trans ?_
  rw [Cert.RowBands.flat_apply]
  exact congrArg (fun row => Cert.RowBands.band row _ q) (funext fun k => flat_row _ b f k _ rfl)

/-- The kernel program's run, read: every weakly fair execution terminates with the result array at the row function
    applied to every (batch, feature) row of the input, and the two argument arrays unchanged. -/
theorem run : θ_run defs (onTc (τ := τ) (main (F := Ideal))) ⟨m, fun _ => 0, ρ⟩ fun r => ∀ c : Dev nD,
      r.2.mem ((c : Thread nD τ).loc main_v3)
        = Cert.RowBands.whole (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v3 (Pipeline.mem_restRefs_of main_v3 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Array

end
-- ==== Proof.RefRow.lean ====
/-
  The reference, entry by entry.

  The reference multiplies every input row by the 512×1025 matrix whose columns are: one column of ones; the 512
  columns of the identity (built by comparing a row counter with a column counter and turning the truth value into
  the number 1 or 0); and the 512 columns of the weights. Entry (b, f, q) of its result is the sum over k of
  x(b, f, k) times that matrix's entry (k, q). Column by column this is the row function `band`: the sum of the row
  against the ones, entry j of the row against column j of the identity, the product with the weights' column
  otherwise.
-/
import proofs.«145276_j48284022342007_2_alg».proof.Proof.Gen.ReferenceIdeal.Read
import proofs.«145276_j48284022342007_2_alg».proof.Proof.RowBands
import proofs.«145276_j48284022342007_2_alg».proof.Proof.LibConcat3

noncomputable section

namespace Cert.ReferenceIdeal.Row

open Cert.ReferenceIdeal Cert.ReferenceIdeal.Gen Cert.ReferenceIdeal.Read Idealize.ShloMosaic Idealize.ShloMosaic.ValueIdx
open scoped BigOperators

/-- The pattern of the float 1.0 denotes the number one. -/
theorem one_word : Ideal.ofBits .f32 0x3F800000#32 = (1 : EReal) := by
  have h : Ideal.ofBits .f32 0x3F800000#32 = ((1 : ℝ) : EReal) := by
    simp [Ideal.ofBits, Ideal.ieee, -EReal.coe_mul]
    norm_num
  rw [h, EReal.coe_one]

/-- Every entry of the column of ones is one. -/
theorem ones_apply (k : Fin 512) : val_main_v0 (F := Ideal) (ix2 k (0 : Fin 1)) = 1 := by
  rw [val_main_v0_apply, val_main_cst_apply]
  exact one_word

/-- Two counters below 512, as 32-bit words, are equal exactly when the counters are. -/
theorem word_eq_iff (k j : Fin 512) : (BitVec.ofNat 32 k.val + 0#32 == BitVec.ofNat 32 j.val) = decide (k = j) := by
  have hk := k.isLt
  have hj := j.isLt
  rw [BitVec.add_zero]
  by_cases h : k = j
  · subst h; simp
  · have hne : BitVec.ofNat 32 k.val ≠ BitVec.ofNat 32 j.val := fun e => h (Fin.ext (by
      have := congrArg BitVec.toNat e
      simp only [BitVec.toNat_ofNat] at this
      omega))
    simp [h, hne]

/-- Entry (k, j) of the identity block is one on the diagonal and zero off it. -/
theorem eye_apply (k j : Fin 512) : val_main_v6 (F := Ideal) (ix2 k j) = if k = j then 1 else 0 := by
  rw [val_main_v6_apply, val_main_v5_apply, val_main_v4_apply, val_main_v1_apply, val_main_v3_apply,
    val_main_c_apply, val_main_v2_apply]
  show (((BitVec.ofBool (BitVec.ofNat 32 k.val + 0#32 == BitVec.ofNat 32 j.val)).toNat : ℝ) : EReal) = _
  rw [word_eq_iff]
  by_cases h : k = j
  · simp [h]
  · simp [h]

/-- The reference's result is the row function applied to every (batch, feature) row. -/
theorem result_eq (x0 : (⟨S32768x4x512, .f32⟩ : BufTy).Contents (Elt Ideal)) (x1 : (⟨S512x512, .f32⟩ : BufTy).Contents (Elt Ideal)) :
    val_main_v8 (F := Ideal) x0 x1 = Cert.RowBands.whole x0 x1 := by
  funext i
  obtain ⟨b, f, q, rfl⟩ : ∃ (b : Fin 32768) (f : Fin 4) (q : Fin 1025), i = ix3 b f q := ⟨i 0, i 1, i 2, eq_ix3 i⟩
  rw [val_main_v8_apply, Cert.RowBands.whole_apply]
  have el : ∀ k : Fin 512, lidx_main_v8 (ix3 b f q) k = ix3 b f k := fun k => funext fun a => Fin.ext (by
    match a with
    | ⟨0, _⟩ => rfl
    | ⟨1, _⟩ => rfl
    | ⟨2, _⟩ => rfl)
  have er : ∀ k : Fin 512, ridx_main_v8 (ix3 b f q) k = ix2 k q := fun k => funext fun a => Fin.ext (by
    match a with
    | ⟨0, _⟩ => rfl
    | ⟨1, _⟩ => rfl)
  simp only [el, er]
  unfold val_main_v7
  rcases Cert.RowBands.col_cases q with h0 | ⟨j, hj⟩ | ⟨n, hn⟩
  · rw [Cert.RowBands.band_sum _ _ _ h0]
    refine Cert.RowBands.sum_mul_ones _ _ fun k => ?_
    exact (Cert.LibConcat3.read_first _ _ _ _ k q (0 : Fin 1) (by show 0 = q.val; omega)).trans (ones_apply k)
  · rw [Cert.RowBands.band_copy _ _ _ j hj]
    refine Cert.RowBands.sum_mul_unit _ j _ ?_ fun k hk => ?_
    · exact (Cert.LibConcat3.read_second _ _ _ _ j q j hj).trans ((eye_apply j j).trans (if_pos rfl))
    · exact (Cert.LibConcat3.read_second _ _ _ _ k q j hj).trans ((eye_apply k j).trans (if_neg hk))
  · rw [Cert.RowBands.band_prod _ _ _ n hn]
    refine Finset.sum_congr rfl fun k _ => ?_
    exact congrArg (x0 (ix3 b f k) * ·) (Cert.LibConcat3.read_third _ _ _ _ k q n hn)

end Cert.ReferenceIdeal.Row

end
-- ==== Proof.lean ====
/-
  The kernel and its reference compute the same array over the extended reals.

  The layer sends every row x(b, f, ·) of the input (512 entries) to a row of 1025 entries: the row's sum, then the
  row itself, then the row times the 512×512 weight matrix. The reference gets this as one product of the input with
  the 512×1025 matrix [ones | identity | weights]. The kernel skips the trivial products: it flattens the (b, f)
  pairs into 131072 rows, and for each block of 1024 rows stores the lane sums, the rows and one matrix product side
  by side; a final reshape restores the (b, f) pairs.

  Both results are the row function `RowBands.band` applied to every (b, f) row (`RowBands.whole`):
    * the reference's entry (b, f, q) is Σₖ x(b, f, k) · M(k, q); against the ones column every product is the entry
      (x · 1 = x), against column j of the identity only the j-th product survives (x · 0 = 0), and against a weights'
      column nothing changes — laws that hold for every extended real, so finiteness of the inputs is not used;
    * the kernel's stored block is read entry by entry off its three side-by-side pieces; a lane reduction and a
      matrix product into a zero accumulator are plain sums on exact values and a change of float format is the
      identity; the 128 blocks tile the 131072×1025 array; and row 4·b + f of the flattened data is row (b, f).

  The three frames are the generated frame runs (the reference's is its generated run with the result dropped), and
  no rewrite was applied in idealizing the kernel, so that conjunct is trivial.
-/
import proofs.«145276_j48284022342007_2_alg».proof.Defs
import proofs.«145276_j48284022342007_2_alg».proof.Proof.Gen.Kernel
import proofs.«145276_j48284022342007_2_alg».proof.Proof.Gen.Kernel.Skeleton
import proofs.«145276_j48284022342007_2_alg».proof.Proof.Gen.Kernel.Launch
import proofs.«145276_j48284022342007_2_alg».proof.Proof.Gen.Kernel.Points
import proofs.«145276_j48284022342007_2_alg».proof.Proof.Gen.Kernel.Frame
import proofs.«145276_j48284022342007_2_alg».proof.Proof.Gen.KernelIdeal
import proofs.«145276_j48284022342007_2_alg».proof.Proof.Gen.KernelIdeal.Skeleton
import proofs.«145276_j48284022342007_2_alg».proof.Proof.Gen.KernelIdeal.Launch
import proofs.«145276_j48284022342007_2_alg».proof.Proof.Gen.KernelIdeal.Points
import proofs.«145276_j48284022342007_2_alg».proof.Proof.Gen.KernelIdeal.Frame
import proofs.«145276_j48284022342007_2_alg».proof.Proof.Gen.ReferenceIdeal
import proofs.«145276_j48284022342007_2_alg».proof.Proof.Gen.ReferenceIdeal.Run
import proofs.«145276_j48284022342007_2_alg».proof.Proof.Gen.ReferenceIdeal.Read
import proofs.«145276_j48284022342007_2_alg».proof.Proof.Gen.Pre_finite_inputs
import proofs.«145276_j48284022342007_2_alg».proof.Proof.KernelArray
import proofs.«145276_j48284022342007_2_alg».proof.Proof.RefRow
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote nothing. -/
theorem preserves : Cert.preserves_Kernel_KernelIdeal := trivial

/-- From memories that agree on the two arguments, both programs end with the result array at the row function applied
    to every (batch, feature) row of the input. -/
theorem algebraic : Cert.algebraic_KernelIdeal_ReferenceIdeal := by
  intro m ρ m' ρ' _ hagree
  refine ⟨fun c => Cert.RowBands.whole (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Row.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
